-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x10 : S_.BroadcastsInDim S5x10 (![] : Fin 0 → Fin S5x10.rank)
  reducesTo_S5x10_S_d0_1 : S5x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S5x10 .f32) (main_arg7 : FVec F S5x10 .f32) (main_arg8 : FVec F S10 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x10 .f32 := Host.absf main_arg6
  let main_cst_6 : FVec F S_ .f32 := constant S_ .f32 0x7F800000#32
  let main_v20 : FVec F S5x10 .f32 := broadcastInDim S5x10 ![] bcast_S_S5x10 main_cst_6
  let main_v21 : IVec S5x10 1 := cmpf .olt main_v19 main_v20
  let main_c_7 : IVec S_ 1 := constantI S_ 1 1#1
  let main_v22 : IVec S_ 1 := (fun x v => Host.reduce IntOp.andi x v reducesTo_S5x10_S_d0_1 h_S_) main_v21 main_c_7
  let main_v23 : IVec S_ 1 := andi main_v18 main_v22
  let main_v24 : FVec F S5x10 .f32 := Host.absf main_arg7
  let main_cst_8 : FVec F S_ .f32 := constant S_ .f32 0x7F800000#32
  let main_v25 : FVec F S5x10 .f32 := broadcastInDim S5x10 ![] bcast_S_S5x10 main_cst_8
  let main_v26 : IVec S5x10 1 := cmpf .olt main_v24 main_v25
  let main_c_9 : IVec S_ 1 := constantI S_ 1 1#1
  let main_v27 : IVec S_ 1 := (fun x v => Host.reduce IntOp.andi x v reducesTo_S5x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x5 .f32) (main_arg1 : IVec S6400000 32) (main_arg2 : IVec S6400000 32) (main_arg3 : FVec F S5x5 .f32) (main_arg4 : FVec F S5x5 .f32) (main_arg5 : FVec F S5 .f32) (main_arg6 : FVec F S5x10 .f32) (main_arg7 : FVec F S5x10 .f32) (main_arg8 : FVec F S10 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x5 .f32 := Host.absf main_arg3
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5x5 .f32 := Host.absf main_arg4
  let main_cst_2 : FVec F S_ .f32 := constant S_ .f32 0x7F800000#32
  let main_v10 : FVec F S5x5 .f32 := broadcastInDim S5x5 ![] bcast_S_S5x5 main_cst_2
  let main_v11 : IVec S5x5 1 := cmpf .olt main_v9 main_v10
  let main_c_3 : IVec S_ 1 := constantI S_ 1 1#1
  let main_v12 : IVec S_ 1 := (fun x v => Host.reduce IntOp.andi x v reducesTo_S5x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_v13 main_v16
-- ==== Kernel.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩
abbrev S6400000x1 : Shape := ⟨2, ![6400000, 1]⟩
abbrev S6400000x5 : Shape := ⟨2, ![6400000, 5]⟩
abbrev S100000 : Shape := ⟨1, ![100000]⟩
abbrev S100000x1 : Shape := ⟨2, ![100000, 1]⟩
abbrev S1x5 : Shape := ⟨2, ![1, 5]⟩
abbrev S10000x5 : Shape := ⟨2, ![10000, 5]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 63
  | .vmem => 18
  | .smem => 0
  | _ => 0

abbrev bufTy : (tb : Table) → Fin (tcTables nBuf tb) → BufTy
  | .hbm, ⟨0, _⟩ => ⟨S100000x5, .f32⟩
  | .hbm, ⟨1, _⟩ => ⟨S6400000, .i32⟩
  | .hbm, ⟨2, _⟩ => ⟨S6400000, .i32⟩
  | .hbm, ⟨3, _⟩ => ⟨S5x5, .f32⟩
  | .hbm, ⟨4, _⟩ => ⟨S5x5, .f32⟩
  | .hbm, ⟨5, _⟩ => ⟨S5, .f32⟩
  | .hbm, ⟨6, _⟩ => ⟨S5x10, .f32⟩
  | .hbm, ⟨7, _⟩ => ⟨S5x10, .f32⟩
  | .hbm, ⟨8, _⟩ => ⟨S10, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x5, .f32⟩
  | .hbm, ⟨18, _⟩ => ⟨S_, .f32⟩
  | .hbm, ⟨19, _⟩ => ⟨S100000x5, .f32⟩
  | .hbm, ⟨20, _⟩ => ⟨S6400000x1, .i32⟩
  | .hbm, ⟨21, _⟩ => ⟨S100000x5, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x5, .f32⟩
  | .hbm, ⟨33, _⟩ => ⟨S100000x5, .f32⟩
  | .hbm, ⟨34, _⟩ => ⟨S1x5, .f32⟩
  | .hbm, ⟨35, _⟩ => ⟨S100000x5, .f32⟩
  | .hbm, ⟨36, _⟩ => ⟨S_, .i32⟩
  | .hbm, ⟨37, _⟩ => ⟨S6400000, .i32⟩
  | .hbm, ⟨38, _⟩ => ⟨S6400000, .i1⟩
  | .hbm, ⟨39, _⟩ => ⟨S_, .i32⟩
  | .hbm, ⟨40, _⟩ => ⟨S6400000, .i32⟩
  | .hbm, ⟨41, _⟩ => ⟨S6400000, .i32⟩
  | .hbm, ⟨42, _⟩ => ⟨S6400000, .i32⟩
  | .hbm, ⟨43, _⟩ => ⟨S6400000x1, .i32⟩
  | .hbm, ⟨44, _⟩ => ⟨S6400000x5, .f32⟩
  | .hbm, ⟨45, _⟩ => ⟨S_, .f32⟩
  | .hbm, ⟨46, _⟩ => ⟨S100000x5, .f32⟩
  | .hbm, ⟨47, _⟩ => ⟨S6400000x1, .i32⟩
  | .hbm, ⟨48, _⟩ => ⟨S100000x5, .f32⟩
  | .hbm, ⟨49, _⟩ => ⟨S_, .f32⟩
  | .hbm, ⟨50, _⟩ => ⟨S6400000, .f32⟩
  | .hbm, ⟨51, _⟩ => ⟨S_, .f32⟩
  | .hbm, ⟨52, _⟩ => ⟨S100000, .f32⟩
  | .hbm, ⟨53, _⟩ => ⟨S6400000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x5, .f32⟩
  | .hbm, ⟨60, _⟩ => ⟨S100000x5, .f32⟩
  | .hbm, ⟨61, _⟩ => ⟨S1x10, .f32⟩
  | .hbm, ⟨62, _⟩ => ⟨S100000x10, .f32⟩
  | .local _ .vmem, ⟨0, _⟩ => ⟨S10000x5, .f32⟩
  | .local _ .vmem, ⟨1, _⟩ => ⟨S10000x5, .f32⟩
  | .local _ .vmem, ⟨2, _⟩ => ⟨S10000x5, .f32⟩
  | .local _ .vmem, ⟨3, _⟩ => ⟨S10000x5, .f32⟩
  | .local _ .vmem, ⟨4, _⟩ => ⟨S5x5, .f32⟩
  | .local _ .vmem, ⟨5, _⟩ => ⟨S5x5, .f32⟩
  | .local _ .vmem, ⟨6, _⟩ => ⟨S1x5, .f32⟩
  | .local _ .vmem, ⟨7, _⟩ => ⟨S10000x5, .f32⟩
  | .local _ .vmem, ⟨8, _⟩ => ⟨S10000x5, .f32⟩
  | .local _ .vmem, ⟨9, _⟩ => ⟨S10000x5, .f32⟩
  | .local _ .vmem, ⟨10, _⟩ => ⟨S10000x5, .f32⟩
  | .local _ .vmem, ⟨11, _⟩ => ⟨S10000x5, .f32⟩
  | .local _ .vmem, ⟨12, _⟩ => ⟨S10000x5, .f32⟩
  | .local _ .vmem, ⟨13, _⟩ => ⟨S5x10, .f32⟩
  | .local _ .vmem, ⟨14, _⟩ => ⟨S5x10, .f32⟩
  | .local _ .vmem, ⟨15, _⟩ => ⟨S1x10, .f32⟩
  | .local _ .vmem, ⟨16, _⟩ => ⟨S10000x10, .f32⟩
  | .local _ .vmem, ⟨17, _⟩ => ⟨S10000x10, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x5 : S_.BroadcastsInDim S100000x5 (![] : Fin 0 → Fin S100000x5.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  shapeCasts_S5_S1x5 : S5.ShapeCasts S1x5
  inb_S10000x5_S10000x5_0_0 : ∀ a, (![0, 0] : Fin 2 → Nat) a + S10000x5.size a ≤ S10000x5.size a
  h_S10000x5 : 0 < S10000x5.numel
  bitsLt_bf16_f32 : FTy.bits .bf16 < FTy.bits .f32
  shapeCasts_S10000x5_S10000x5 : S10000x5.ShapeCasts S10000x5
  inb_S5x5_S5x5_0_0 : ∀ a, (![0, 0] : Fin 2 → Nat) a + S5x5.size a ≤ S5x5.size a
  h_S5x5 : 0 < S5x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  shapeCasts_S10_S1x10 : S10.ShapeCasts S1x10
  inb_S5x10_S5x10_0_0 : ∀ a, (![0, 0] : Fin 2 → Nat) a + S5x10.size a ≤ S5x10.size a
  h_S5x10 : 0 < S5x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  gather_S100000x5_S6400000x1_S6400000x5_1_0_n_n_0_1_15_wf : GatherDims.WF S100000x5 S6400000x1 S6400000x5 [1] [0] [] [0] [] 1 ![1, 5]
  scatter_S100000x5_S6400000x1_S6400000x5_1_0_0_1_wf : ScatterDims.WF S100000x5 S6400000x1 S6400000x5 [1] [0] [0] 1
  scatter_S100000_S6400000x1_S6400000_n_0_0_1_wf : ScatterDims.WF S100000 S6400000x1 S6400000 [] [0] [0] 1
  dot_S10000x5_S5x5_S10000x5_1_0_0_1_n_n_wf : DotDims.WF S10000x5 S5x5 S10000x5 [1] [0] [0] [1] [] []
  dot_S10000x5_S5x10_S10000x10_1_0_0_1_n_n_wf : DotDims.WF S10000x5 S5x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S100000x5.size a
  hwx0_1 : ∀ i : grid0.Coords, EltTy.bits .f32 = 32 ∨ (Rect.block (s := S100000x5) S10000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5.size a ≤ S5x5.size a
  hwx0_2 : ∀ i : grid0.Coords, EltTy.bits .f32 = 32 ∨ (Rect.block (s := S5x5) S5x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x5.size a ≤ S5x5.size a
  hwx0_3 : ∀ i : grid0.Coords, EltTy.bits .f32 = 32 ∨ (Rect.block (s := S5x5) S5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x5.size a ≤ S100000x5.size a
  hwx0_5 : ∀ i : grid0.Coords, EltTy.bits .f32 = 32 ∨ (Rect.block (s := S100000x5) S10000x5.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S100000x5.size a
  hwx1_0 : ∀ i : grid1.Coords, EltTy.bits .f32 = 32 ∨ (Rect.block (s := S100000x5) S10000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x5.size a ≤ S100000x5.size a
  hwx1_1 : ∀ i : grid1.Coords, EltTy.bits .f32 = 32 ∨ (Rect.block (s := S100000x5) S10000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x10.size a ≤ S5x10.size a
  hwx1_2 : ∀ i : grid1.Coords, EltTy.bits .f32 = 32 ∨ (Rect.block (s := S5x10) S5x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x10.size a ≤ S5x10.size a
  hwx1_3 : ∀ i : grid1.Coords, EltTy.bits .f32 = 32 ∨ (Rect.block (s := S5x10) S5x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x10.size a ≤ S100000x10.size a
  hwx1_5 : ∀ i : grid1.Coords, EltTy.bits .f32 = 32 ∨ (Rect.block (s := S100000x10) S10000x10.size (cc1_transform_5 i) (hinb1_5 i)).WholeWords (EltTy.packing .f32)

variable [Facts₀]

def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S10000x5_S5x5_S10000x5_1_0_0_1_n_n : DotDims S10000x5 S5x5 S10000x5 where
  lhsContracting := [1]
  rhsContracting := [0]
  lhsNonContracting := [0]
  rhsNonContracting := [1]
  lhsBatch := []
  rhsBatch := []
  wf := dot_S10000x5_S5x5_S10000x5_1_0_0_1_n_n_wf
def dot_S10000x5_S5x10_S10000x10_1_0_0_1_n_n : DotDims S10000x5 S5x10 S10000x10 where
  lhsContracting := [1]
  rhsContracting := [0]
  lhsNonContracting := [0]
  rhsNonContracting := [1]
  lhsBatch := []
  rhsBatch := []
  wf := dot_S10000x5_S5x10_S10000x10_1_0_0_1_n_n_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S5x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S5x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩
abbrev S6400000x1 : Shape := ⟨2, ![6400000, 1]⟩
abbrev S6400000x5 : Shape := ⟨2, ![6400000, 5]⟩
abbrev S100000 : Shape := ⟨1, ![100000]⟩
abbrev S100000x1 : Shape := ⟨2, ![100000, 1]⟩
abbrev S1x5 : Shape := ⟨2, ![1, 5]⟩
abbrev S100000x10 : Shape := ⟨2, ![100000, 10]⟩
abbrev S1x10 : Shape := ⟨2, ![1, 10]⟩

abbrev nBuf : Space → Nat
  | .hbm => 87
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S6400000, .i32⟩
  | .hbm, ⟨2, _⟩ => ⟨S6400000, .i32⟩
  | .hbm, ⟨3, _⟩ => ⟨S5x5, .f32⟩
  | .hbm, ⟨4, _⟩ => ⟨S5x5, .f32⟩
  | .hbm, ⟨5, _⟩ => ⟨S5, .f32⟩
  | .hbm, ⟨6, _⟩ => ⟨S5x10, .f32⟩
  | .hbm, ⟨7, _⟩ => ⟨S5x10, .f32⟩
  | .hbm, ⟨8, _⟩ => ⟨S10, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x5, .f32⟩
  | .hbm, ⟨18, _⟩ => ⟨S_, .f32⟩
  | .hbm, ⟨19, _⟩ => ⟨S100000x5, .f32⟩
  | .hbm, ⟨20, _⟩ => ⟨S6400000x1, .i32⟩
  | .hbm, ⟨21, _⟩ => ⟨S100000x5, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x5, .f32⟩
  | .hbm, ⟨33, _⟩ => ⟨S100000x5, .f32⟩
  | .hbm, ⟨34, _⟩ => ⟨S100000x5, .f32⟩
  | .hbm, ⟨35, _⟩ => ⟨S100000x5, .f32⟩
  | .hbm, ⟨36, _⟩ => ⟨S100000x5, .f32⟩
  | .hbm, ⟨37, _⟩ => ⟨S1x5, .f32⟩
  | .hbm, ⟨38, _⟩ => ⟨S100000x5, .f32⟩
  | .hbm, ⟨39, _⟩ => ⟨S100000x5, .f32⟩
  | .hbm, ⟨40, _⟩ => ⟨S100000x5, .f32⟩
  | .hbm, ⟨41, _⟩ => ⟨S100000x5, .f32⟩
  | .hbm, ⟨42, _⟩ => ⟨S_, .f32⟩
  | .hbm, ⟨43, _⟩ => ⟨S100000x5, .f32⟩
  | .hbm, ⟨44, _⟩ => ⟨S100000x5, .f32⟩
  | .hbm, ⟨45, _⟩ => ⟨S_, .f32⟩
  | .hbm, ⟨46, _⟩ => ⟨S100000x5, .f32⟩
  | .hbm, ⟨47, _⟩ => ⟨S100000x5, .f32⟩
  | .hbm, ⟨48, _⟩ => ⟨S_, .i32⟩
  | .hbm, ⟨49, _⟩ => ⟨S6400000, .i32⟩
  | .hbm, ⟨50, _⟩ => ⟨S6400000, .i1⟩
  | .hbm, ⟨51, _⟩ => ⟨S_, .i32⟩
  | .hbm, ⟨52, _⟩ => ⟨S6400000, .i32⟩
  | .hbm, ⟨53, _⟩ => ⟨S6400000, .i32⟩
  | .hbm, ⟨54, _⟩ => ⟨S6400000, .i32⟩
  | .hbm, ⟨55, _⟩ => ⟨S6400000x1, .i32⟩
  | .hbm, ⟨56, _⟩ => ⟨S6400000x5, .f32⟩
  | .hbm, ⟨57, _⟩ => ⟨S_, .f32⟩
  | .hbm, ⟨58, _⟩ => ⟨S100000x5, .f32⟩
  | .hbm, ⟨59, _⟩ => ⟨S6400000x1, .i32⟩
  | .hbm, ⟨60, _⟩ => ⟨S100000x5, .f32⟩
  | .hbm, ⟨61, _⟩ => ⟨S_, .f32⟩
  | .hbm, ⟨62, _⟩ => ⟨S6400000, .f32⟩
  | .hbm, ⟨63, _⟩ => ⟨S_, .f32⟩
  | .hbm, ⟨64, _⟩ => ⟨S100000, .f32⟩
  | .hbm, ⟨65, _⟩ => ⟨S6400000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x5, .f32⟩
  | .hbm, ⟨72, _⟩ => ⟨S100000x5, .f32⟩
  | .hbm, ⟨73, _⟩ => ⟨S100000x10, .f32⟩
  | .hbm, ⟨74, _⟩ => ⟨S100000x10, .f32⟩
  | .hbm, ⟨75, _⟩ => ⟨S100000x10, .f32⟩
  | .hbm, ⟨76, _⟩ => ⟨S1x10, .f32⟩
  | .hbm, ⟨77, _⟩ => ⟨S100000x10, .f32⟩
  | .hbm, ⟨78, _⟩ => ⟨S100000x10, .f32⟩
  | .hbm, ⟨79, _⟩ => ⟨S100000x10, .f32⟩
  | .hbm, ⟨80, _⟩ => ⟨S100000x10, .f32⟩
  | .hbm, ⟨81, _⟩ => ⟨S_, .f32⟩
  | .hbm, ⟨82, _⟩ => ⟨S100000x10, .f32⟩
  | .hbm, ⟨83, _⟩ => ⟨S100000x10, .f32⟩
  | .hbm, ⟨84, _⟩ => ⟨S_, .f32⟩
  | .hbm, ⟨85, _⟩ => ⟨S100000x10, .f32⟩
  | .hbm, ⟨86, _⟩ => ⟨S100000x10, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x5 : S_.BroadcastsInDim S100000x5 (![] : Fin 0 → Fin S100000x5.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  gather_S100000x5_S6400000x1_S6400000x5_1_0_n_n_0_1_15_wf : GatherDims.WF S100000x5 S6400000x1 S6400000x5 [1] [0] [] [0] [] 1 ![1, 5]
  scatter_S100000x5_S6400000x1_S6400000x5_1_0_0_1_wf : ScatterDims.WF S100000x5 S6400000x1 S6400000x5 [1] [0] [0] 1
  scatter_S100000_S6400000x1_S6400000_n_0_0_1_wf : ScatterDims.WF S100000 S6400000x1 S6400000 [] [0] [0] 1
  dot_S100000x5_S5x5_S100000x5_1_0_0_1_n_n_wf : DotDims.WF S100000x5 S5x5 S100000x5 [1] [0] [0] [1] [] []
  dot_S100000x5_S5x10_S100000x10_1_0_0_1_n_n_wf : DotDims.WF S100000x5 S5x10 S100000x10 [1] [0] [0] [1] [] []

variable [Facts₀]

def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x5_S5x5_S100000x5_1_0_0_1_n_n : DotDims S100000x5 S5x5 S100000x5 where
  lhsContracting := [1]
  rhsContracting := [0]
  lhsNonContracting := [0]
  rhsNonContracting := [1]
  lhsBatch := []
  rhsBatch := []
  wf := dot_S100000x5_S5x5_S100000x5_1_0_0_1_n_n_wf
def dot_S100000x5_S5x10_S100000x10_1_0_0_1_n_n : DotDims S100000x5 S5x10 S100000x10 where
  lhsContracting := [1]
  rhsContracting := [0]
  lhsNonContracting := [0]
  rhsNonContracting := [1]
  lhsBatch := []
  rhsBatch := []
  wf := dot_S100000x5_S5x10_S100000x10_1_0_0_1_n_n_wf

class Facts : Prop extends Facts₀ where

variable [Facts]
-- ==== Proof.KernelRun.lean ====
/-
  The kernel's program run from launch to return, its result buffer named.

  The program is four segments: a stretch of host operations, the first layer's launch, a second stretch, the second
  layer's launch. The buffer contents at each boundary are a fold from the launch memory (the generated `W1 … W4`): a
  stretch applies its operations, a launch replaces its result array by what its write-backs leave. Every weakly fair
  execution terminates without a fault, each argument array ends as launched, and the result buffer ends at the last
  boundary's contents of it, `W4 … main_v41`. What those contents are is read off the fold elsewhere.
-/
import proofs.«166889_j67259187855641_2_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the launch over the four segments, the last thread state read against the final state; the result buffer
    is an unscoped buffer like the arguments, so the final state holds it at the last boundary's contents. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage.Run

end
-- ==== Proof.LibDot.lean ====
/-
  General lemma: a plain matrix product read at an entry.

  For the dimension numbers "rows × contraction times contraction × columns" with no batch axis, the kernel's matrix
  product into a zero accumulator and the host's `dot_general` are, at the ideal instance, the same exact sum: entry (p, q)
  is the sum over k of lhs (p, k) · rhs (k, q).
-/
import Idealize.ShloMosaic.PureOps.Ideal
import Idealize.ShloMosaic.PureOps.Ideal.Laws
import Idealize.ShloMosaic.Lib.ValueIdx

noncomputable section

namespace Cert.Lib.Dot

open Idealize.ShloMosaic Idealize.ShloMosaic.ValueIdx

variable {M K N : Nat} {φ₁ φ₂ : FTy}

/-- The left operand's index at result entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ =>
    exact ((DotDims.plain M K N).lhsIdx_val_of_single (cl := 1) rfl _ _).trans
      (contrEquiv1_symm_val (DotDims.plain M K N) K rfl rfl k)

/-- The right operand's index there is (k, q). -/
theorem plain_rhsIdx (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ =>
    exact ((DotDims.plain M K N).rhsIdx_val_of_single (cr := 0) rfl _ _).trans
      (contrEquiv1_symm_val (DotDims.plain M K N) K rfl rfl k)
  | ⟨1, _⟩ => rfl

/-- The kernel's product into a zero accumulator, at entry (p, q). -/
theorem matmul_plain_apply (prec : Option ContractPrecision) (lhs : FVec Ideal ⟨2, ![M, K]⟩ φ₁) (rhs : FVec Ideal ⟨2, ![K, N]⟩ φ₂)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's `dot_general`, at entry (p, q). -/
theorem dotGeneral_plain_apply (prec : Option ContractPrecision) (sched : HostSchedule) (lhs : FVec Ideal ⟨2, ![M, K]⟩ φ₁)
    (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) := by
  rw [Ideal.dotGeneral_apply, ← Equiv.sum_comp (contrEquiv1 (DotDims.plain M K N) K rfl rfl).symm]
  exact Finset.sum_congr rfl fun k _ => by rw [plain_lhsIdx, plain_rhsIdx]

end Cert.Lib.Dot

end
-- ==== Proof.DenseSpec.lean ====
/-
  One GraphSAGE dense layer as a function of whole arrays, entry by entry.

  For node features `h` and neighbour means `hn` (both n × k), weights `W`, `Wn` (k × o) and a bias row `β`, the layer's
  value at node `p`, output feature `q` is

      σ( Σ_j h[p, j] · W[j, q]  +  Σ_j hn[p, j] · Wn[j, q]  +  β[q] ),      σ(z) = 1 / (1 + e^(-z)),

  on the extended reals, the two sums and the two additions taken in exactly this order. Nothing here depends on how
  the rows are tiled: row `p` of the result reads only row `p` of `h` and of `hn`.
-/
import Idealize.ShloMosaic.PureOps.Ideal
import Idealize.ShloMosaic.Lib.ValueIdx

noncomputable section

namespace Cert.Sage

open Idealize.ShloMosaic Idealize.ShloMosaic.ValueIdx

variable {n k o : Nat}

/-- The layer at node `p`, output feature `q`. -/
def denseAt (h hn : (⟨2, ![n, k]⟩ : Shape).Idx → EReal) (W Wn : (⟨2, ![k, o]⟩ : Shape).Idx → EReal) (β : Fin o → EReal)
    (p : Fin n) (q : Fin o) : EReal :=
  Ideal.logistic ((∑ j : Fin k, h (ix2 p j) * W (ix2 j q)) + (∑ j : Fin k, hn (ix2 p j) * Wn (ix2 j q)) + β q)

/-- The layer as a whole n × o array. -/
def dense (h hn : (⟨2, ![n, k]⟩ : Shape).Idx → EReal) (W Wn : (⟨2, ![k, o]⟩ : Shape).Idx → EReal) (β : Fin o → EReal) :
    (⟨2, ![n, o]⟩ : Shape).Idx → EReal :=
  fun i => denseAt h hn W Wn β (i 0) (i 1)

theorem dense_ix2 (h hn : (⟨2, ![n, k]⟩ : Shape).Idx → EReal) (W Wn : (⟨2, ![k, o]⟩ : Shape).Idx → EReal) (β : Fin o → EReal)
    (p : Fin n) (q : Fin o) : dense h hn W Wn β (ix2 p q) = denseAt h hn W Wn β p q := rfl

/-- Row locality: a block of rows of the layer is the layer of the blocks of rows. If `x` and `xn` are rows
    `r + ·` of `h` and `hn`, the layer of `x`, `xn` at local row `p` is the layer of `h`, `hn` at row `r + p`. -/
theorem denseAt_rows {n' : Nat} (h hn : (⟨2, ![n, k]⟩ : Shape).Idx → EReal) (x xn : (⟨2, ![n', k]⟩ : Shape).Idx → EReal)
    (W Wn : (⟨2, ![k, o]⟩ : Shape).Idx → EReal) (β : Fin o → EReal) (p : Fin n') (P : Fin n) (q : Fin o)
    (hx : ∀ j : Fin k, x (ix2 p j) = h (ix2 P j)) (hxn : ∀ j : Fin k, xn (ix2 p j) = hn (ix2 P j)) :
    denseAt x xn W Wn β p q = denseAt h hn W Wn β P q := by
  unfold denseAt
  simp only [hx, hxn]

end Cert.Sage

end
-- ==== Proof.Payload.lean ====
/-
  What each kernel body stores, read at an entry.

  Both bodies load a block of node features, the matching block of neighbour means, the two weight matrices and the bias
  row, round the matrix operands to bf16 (the identity on the extended reals), multiply into zero accumulators, add the
  two products, add the bias row broadcast down the rows and apply the logistic function. At entry (p, q) that is one
  dense layer's value (`Cert.Sage.denseAt`) of the loaded blocks, the bias read at row 0 of its 1 × o block.
-/
import proofs.«166889_j67259187855641_2_alg».proof.Proof.Gen.KernelIdeal.Skeleton
import proofs.«166889_j67259187855641_2_alg».proof.Proof.LibDot
import proofs.«166889_j67259187855641_2_alg».proof.Proof.DenseSpec
import Idealize.ShloMosaic.Lib.Pipeline.Value
import Idealize.ShloMosaic.Lib.ValueIdx

noncomputable section

namespace Cert.Sage.Payload

open Idealize.ShloMosaic Idealize.ShloMosaic.ValueIdx Cert.KernelIdeal Cert.KernelIdeal.Gen

/-- The first body's dimension numbers are the plain rows × contraction by contraction × columns product. -/
theorem dot0_plain : dot_S10000x5_S5x5_S10000x5_1_0_0_1_n_n = DotDims.plain 10000 5 5 := rfl
/-- So are the second body's. -/
theorem dot1_plain : dot_S10000x5_S5x10_S10000x10_1_0_0_1_n_n = DotDims.plain 10000 5 10 := rfl

/-- The bias row broadcast down 10000 rows, read at (p, q), is the bias at (0, q). -/
theorem bias0 (b : FVec Ideal S1x5 .f32) (p : Fin 10000) (q : Fin 5) :
    broadcastTo S10000x5 (shapeCast S1x5 b shapeCasts_S1x5_S1x5) broadcasts_S1x5_S10000x5 (ix2 p q) = b (ix2 0 q) := by
  rw [shapeCast_self]
  refine broadcastTo_apply b broadcasts_S1x5_S10000x5 (ix2 p q) (ix2 0 q) fun a => ?_
  match a with
  | ⟨0, _⟩ => rfl
  | ⟨1, _⟩ => rfl

theorem bias1 (b : FVec Ideal S1x10 .f32) (p : Fin 10000) (q : Fin 10) :
    broadcastTo S10000x10 (shapeCast S1x10 b shapeCasts_S1x10_S1x10) broadcasts_S1x10_S10000x10 (ix2 p q) = b (ix2 0 q) := by
  rw [shapeCast_self]
  refine broadcastTo_apply b broadcasts_S1x10_S10000x10 (ix2 p q) (ix2 0 q) fun a => ?_
  match a with
  | ⟨0, _⟩ => rfl
  | ⟨1, _⟩ => rfl

/-- The first body's stored value at (p, q): the dense layer of its loaded blocks. -/
theorem pay0_apply (x xn : Vec Ideal S10000x5 .f32) (W Wn : Vec Ideal S5x5 .f32) (b : Vec Ideal S1x5 .f32)
    (p : Fin 10000) (q : Fin 5) :
    k0_pay1 x xn W Wn b (ix2 p q) = Cert.Sage.denseAt x xn W Wn (fun q => b (ix2 0 q)) p q := by
  unfold k0_pay1 Cert.Sage.denseAt
  show Ideal.logistic (FloatOps.matmul (F := Ideal) dot_S10000x5_S5x5_S10000x5_1_0_0_1_n_n none (truncf .bf16 x bitsLt_bf16_f32) (truncf .bf16 W bitsLt_bf16_f32) (constant (F := Ideal) S10000x5 .f32 0x00000000#32) (ix2 p q)
      + FloatOps.matmul (F := Ideal) dot_S10000x5_S5x5_S10000x5_1_0_0_1_n_n none (truncf .bf16 (shapeCast S10000x5 xn shapeCasts_S10000x5_S10000x5) bitsLt_bf16_f32) (truncf .bf16 Wn bitsLt_bf16_f32) (constant (F := Ideal) S10000x5 .f32 0x00000000#32) (ix2 p q)
      + broadcastTo S10000x5 (shapeCast S1x5 b shapeCasts_S1x5_S1x5) broadcasts_S1x5_S10000x5 (ix2 p q)) = _
  rw [shapeCast_self, bias0, dot0_plain]
  rw [Cert.Lib.Dot.matmul_plain_apply, Cert.Lib.Dot.matmul_plain_apply]
  rfl

/-- The second body's stored value at (p, q): the dense layer of its loaded blocks. -/
theorem pay1_apply (x xn : Vec Ideal S10000x5 .f32) (W Wn : Vec Ideal S5x10 .f32) (b : Vec Ideal S1x10 .f32)
    (p : Fin 10000) (q : Fin 10) :
    k1_pay1 x xn W Wn b (ix2 p q) = Cert.Sage.denseAt x xn W Wn (fun q => b (ix2 0 q)) p q := by
  unfold k1_pay1 Cert.Sage.denseAt
  show Ideal.logistic (FloatOps.matmul (F := Ideal) dot_S10000x5_S5x10_S10000x10_1_0_0_1_n_n none (truncf .bf16 (shapeCast S10000x5 x shapeCasts_S10000x5_S10000x5) bitsLt_bf16_f32) (truncf .bf16 W bitsLt_bf16_f32) (constant (F := Ideal) S10000x10 .f32 0x00000000#32) (ix2 p q)
      + FloatOps.matmul (F := Ideal) dot_S10000x5_S5x10_S10000x10_1_0_0_1_n_n none (truncf .bf16 (shapeCast S10000x5 xn shapeCasts_S10000x5_S10000x5) bitsLt_bf16_f32) (truncf .bf16 Wn bitsLt_bf16_f32) (constant (F := Ideal) S10000x10 .f32 0x00000000#32) (ix2 p q)
      + broadcastTo S10000x10 (shapeCast S1x10 b shapeCasts_S1x10_S1x10) broadcasts_S1x10_S10000x10 (ix2 p q)) = _
  rw [shapeCast_self, shapeCast_self, bias1, dot1_plain]
  rw [Cert.Lib.Dot.matmul_plain_apply, Cert.Lib.Dot.matmul_plain_apply]
  rfl

end Cert.Sage.Payload

end
-- ==== Proof.Region0.lean ====
/-
  Layer one's launch, whole: what its result array holds when the launch ends.

  The grid has 10 points. Point t reads rows 10000·t … 10000·t + 9999 of the node features and of the neighbour means,
  the whole of both weight matrices and of the 1 × 5 bias row, and writes the same rows of the result. The body's value at
  local entry (p, q) is the dense layer of the loaded blocks; a dense layer's row depends only on the same row of its two
  inputs, so block t of the result is rows 10000·t … of the dense layer of the WHOLE arrays. The ten row blocks cover the
  result, so it ends holding that layer — of whatever the launch found in its operand arrays (`V`, a parameter).
-/
import proofs.«166889_j67259187855641_2_alg».proof.Proof.Gen.KernelIdeal.Frame
import proofs.«166889_j67259187855641_2_alg».proof.Proof.Payload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the launch's whole operand arrays: its bias is row 0 of the 1 × 5 operand. -/
def layer (c : Dev nD) : S100000x5.Idx → EReal :=
  Cert.Sage.dense (n := 100000) (k := 5) (o := 5) (V c main_arg0 : S100000x5.Idx → EReal) (V c main_v18 : S100000x5.Idx → EReal)
    (V c main_arg3 : S5x5.Idx → EReal) (V c main_arg4 : S5x5.Idx → EReal) (fun q => (V c main_v19 : S1x5.Idx → EReal) (ix2 0 q))

/-- Where each window's block sits at point t: the row-blocked windows at block row t, the others at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Global row of local row p of block t. -/
def row (t : Fin cfg0.N) (p : Fin 10000) : Fin 100000 :=
  ⟨10000 * t.val + p.val, by have h : cfg0.N = 10 := N_0; have := t.isLt; have := p.isLt; omega⟩

/-- The feature block at point t is rows 10000·t + · of the feature array. -/
theorem blkX_apply (c : Dev nD) (t : Fin cfg0.N) (p : Fin 10000) (j : Fin 5) :
    (iblk0 V c 0 t : S10000x5.Idx → EReal) (ix2 p j) = (V c main_arg0 : S100000x5.Idx → EReal) (ix2 (row t p) j) := by
  obtain ⟨e0, e1, -⟩ := idx_facts t
  unfold iblk0
  rw [View.read_apply]
  show (V c main_arg0 : S100000x5.Idx → EReal) _ = _
  refine congrArg (V c main_arg0 : S100000x5.Idx → EReal) ?_
  funext a
  apply Fin.ext
  match a with
  | ⟨0, _⟩ => show win0_0.index t (0 : Fin 2) * 10000 + 1 * p.val = 10000 * t.val + p.val; rw [e0]; omega
  | ⟨1, _⟩ => show win0_0.index t (1 : Fin 2) * 5 + 1 * j.val = j.val; rw [e1]; omega

/-- The neighbour-mean block at point t is the same rows of the neighbour-mean array. -/
theorem blkHn_apply (c : Dev nD) (t : Fin cfg0.N) (p : Fin 10000) (j : Fin 5) :
    (iblk0 V c 1 t : S10000x5.Idx → EReal) (ix2 p j) = (V c main_v18 : S100000x5.Idx → EReal) (ix2 (row t p) j) := by
  obtain ⟨-, -, e0, e1, -⟩ := idx_facts t
  unfold iblk0
  rw [View.read_apply]
  show (V c main_v18 : S100000x5.Idx → EReal) _ = _
  refine congrArg (V c main_v18 : S100000x5.Idx → EReal) ?_
  funext a
  apply Fin.ext
  match a with
  | ⟨0, _⟩ => show win0_1.index t (0 : Fin 2) * 10000 + 1 * p.val = 10000 * t.val + p.val; rw [e0]; omega
  | ⟨1, _⟩ => show win0_1.index t (1 : Fin 2) * 5 + 1 * j.val = j.val; rw [e1]; omega

/-- The first weight window's one block is its whole array. -/
theorem blkW_eq (c : Dev nD) (t : Fin cfg0.N) : (iblk0 V c 2 t : S5x5.Idx → EReal) = (V c main_arg3 : S5x5.Idx → EReal) := by
  obtain ⟨-, -, -, -, e0, e1, -⟩ := idx_facts t
  funext y
  unfold iblk0
  rw [View.read_apply]
  show (V c main_arg3 : S5x5.Idx → EReal) _ = _
  refine congrArg (V c main_arg3 : S5x5.Idx → EReal) ?_
  funext a
  apply Fin.ext
  match a with
  | ⟨0, _⟩ => show win0_2.index t (0 : Fin 2) * 5 + 1 * (y 0).val = (y 0).val; rw [e0]; omega
  | ⟨1, _⟩ => show win0_2.index t (1 : Fin 2) * 5 + 1 * (y 1).val = (y 1).val; rw [e1]; omega

/-- So is the second weight window's. -/
theorem blkWn_eq (c : Dev nD) (t : Fin cfg0.N) : (iblk0 V c 3 t : S5x5.Idx → EReal) = (V c main_arg4 : S5x5.Idx → EReal) := by
  obtain ⟨-, -, -, -, -, -, e0, e1, -⟩ := idx_facts t
  funext y
  unfold iblk0
  rw [View.read_apply]
  show (V c main_arg4 : S5x5.Idx → EReal) _ = _
  refine congrArg (V c main_arg4 : S5x5.Idx → EReal) ?_
  funext a
  apply Fin.ext
  match a with
  | ⟨0, _⟩ => show win0_3.index t (0 : Fin 2) * 5 + 1 * (y 0).val = (y 0).val; rw [e0]; omega
  | ⟨1, _⟩ => show win0_3.index t (1 : Fin 2) * 5 + 1 * (y 1).val = (y 1).val; rw [e1]; omega

/-- And the bias window's. -/
theorem blkB_eq (c : Dev nD) (t : Fin cfg0.N) : (iblk0 V c 4 t : S1x5.Idx → EReal) = (V c main_v19 : S1x5.Idx → EReal) := by
  obtain ⟨-, -, -, -, -, -, -, -, e0, e1, -⟩ := idx_facts t
  funext y
  unfold iblk0
  rw [View.read_apply]
  show (V c main_v19 : S1x5.Idx → EReal) _ = _
  refine congrArg (V c main_v19 : S1x5.Idx → EReal) ?_
  funext a
  apply Fin.ext
  match a with
  | ⟨0, _⟩ => show win0_4.index t (0 : Fin 2) * 1 + 1 * (y 0).val = (y 0).val; rw [e0]; omega
  | ⟨1, _⟩ => show win0_4.index t (1 : Fin 2) * 5 + 1 * (y 1).val = (y 1).val; rw [e1]; omega

/-- What point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S10000x5) hz, View.ld_unit_zero (S := S5x5) hz, View.ld_unit_zero (S := S1x5) hz]
  obtain ⟨-, -, -, -, -, -, -, -, -, -, e0, e1⟩ := idx_facts t
  funext y
  obtain ⟨p, q, rfl⟩ : ∃ (p : Fin 10000) (q : Fin 5), y = ix2 p q := ⟨y 0, y 1, eq_ix2 y⟩
  show k0_pay1 (iblk0 V c 0 t) (iblk0 V c 1 t) (iblk0 V c 2 t) (iblk0 V c 3 t) (iblk0 V c 4 t) (ix2 p q)
    = layer V c (((cfg0.win 5).blk t).view.emb (ix2 p q))
  have hemb : ((cfg0.win 5).blk t).view.emb (ix2 p q) = (ix2 (row t p) q : S100000x5.Idx) := by
    funext a
    apply Fin.ext
    match a with
    | ⟨0, _⟩ => show win0_5.index t (0 : Fin 2) * 10000 + 1 * p.val = 10000 * t.val + p.val; rw [e0]; omega
    | ⟨1, _⟩ => show win0_5.index t (1 : Fin 2) * 5 + 1 * q.val = q.val; rw [e1]; omega
  rw [hemb]
  refine (Cert.Sage.Payload.pay0_apply _ _ _ _ _ p q).trans ?_
  rw [blkW_eq, blkWn_eq, blkB_eq]
  exact Cert.Sage.denseAt_rows _ _ _ _ _ _ _ p (row t p) q (fun j => blkX_apply V c t p j) (fun j => blkHn_apply V c t p j)

/-- An index of the result array is in point t's block iff each coordinate is in the block's range. -/
theorem mem_blk (t : Fin cfg0.N) (i : S100000x5.Idx) :
    i ∈ ((cfg0.win 5).blk t).view.set ↔ ∀ a : Fin 2, win0_5.index t a * S10000x5.size a ≤ (i a).val ∧ (i a).val < win0_5.index t a * S10000x5.size a + S10000x5.size a := by
  show i ∈ ((View.whole main_v20).slice (win0_5.rect t)).set ↔ _
  rw [View.set_slice_whole, Rect.mem_set_unit]
  exact Iff.rfl

/-- Row r of the result is in the block of point r / 10000. -/
theorem cover (i : S100000x5.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 5 := (i 1).isLt
  have ht : (i 0).val / 10000 < cfg0.N := by omega
  obtain ⟨-, -, -, -, -, -, -, -, -, -, e0, e1⟩ := idx_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 5 ≤ (i 1).val
      ∧ (i 1).val < win0_5.index ⟨(i 0).val / 10000, ht⟩ (1 : Fin 2) * 5 + 5
    rw [e1]
    omega

/-- The result array after the launch: the layer of the operand arrays as the launch found them. -/
theorem arr (c : Dev nD) : (dat0 V c).arrAt 5 cfg0.N = layer V c :=
  (dat0 V c).arrAt_eq_of_cover 5 (layer V c) (fun t _ => flushed_eq V c t) cover

end Cert.Sage.Region0

end
-- ==== Proof.Region1.lean ====
/-
  Layer two's launch, whole: what its result array holds when the launch ends.

  The grid has 10 points. Point t reads rows 10000·t … 10000·t + 9999 of the node features and of the neighbour means,
  the whole of both weight matrices and of the 1 × 10 bias row, and writes the same rows of the result. The body's value at
  local entry (p, q) is the dense layer of the loaded blocks; a dense layer's row depends only on the same row of its two
  inputs, so block t of the result is rows 10000·t … of the dense layer of the WHOLE arrays. The ten row blocks cover the
  result, so it ends holding that layer — of whatever the launch found in its operand arrays (`V`, a parameter).
-/
import proofs.«166889_j67259187855641_2_alg».proof.Proof.Gen.KernelIdeal.Frame
import proofs.«166889_j67259187855641_2_alg».proof.Proof.Payload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the launch's whole operand arrays: its bias is row 0 of the 1 × 10 operand. -/
def layer (c : Dev nD) : S100000x10.Idx → EReal :=
  Cert.Sage.dense (n := 100000) (k := 5) (o := 10) (V c main_v20 : S100000x5.Idx → EReal) (V c main_v39 : S100000x5.Idx → EReal)
    (V c main_arg6 : S5x10.Idx → EReal) (V c main_arg7 : S5x10.Idx → EReal) (fun q => (V c main_v40 : S1x10.Idx → EReal) (ix2 0 q))

/-- Where each window's block sits at point t: the row-blocked windows at block row t, the others at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Global row of local row p of block t. -/
def row (t : Fin cfg1.N) (p : Fin 10000) : Fin 100000 :=
  ⟨10000 * t.val + p.val, by have h : cfg1.N = 10 := N_1; have := t.isLt; have := p.isLt; omega⟩

/-- The feature block at point t is rows 10000·t + · of the feature array. -/
theorem blkX_apply (c : Dev nD) (t : Fin cfg1.N) (p : Fin 10000) (j : Fin 5) :
    (iblk1 V c 0 t : S10000x5.Idx → EReal) (ix2 p j) = (V c main_v20 : S100000x5.Idx → EReal) (ix2 (row t p) j) := by
  obtain ⟨e0, e1, -⟩ := idx_facts t
  unfold iblk1
  rw [View.read_apply]
  show (V c main_v20 : S100000x5.Idx → EReal) _ = _
  refine congrArg (V c main_v20 : S100000x5.Idx → EReal) ?_
  funext a
  apply Fin.ext
  match a with
  | ⟨0, _⟩ => show win1_0.index t (0 : Fin 2) * 10000 + 1 * p.val = 10000 * t.val + p.val; rw [e0]; omega
  | ⟨1, _⟩ => show win1_0.index t (1 : Fin 2) * 5 + 1 * j.val = j.val; rw [e1]; omega

/-- The neighbour-mean block at point t is the same rows of the neighbour-mean array. -/
theorem blkHn_apply (c : Dev nD) (t : Fin cfg1.N) (p : Fin 10000) (j : Fin 5) :
    (iblk1 V c 1 t : S10000x5.Idx → EReal) (ix2 p j) = (V c main_v39 : S100000x5.Idx → EReal) (ix2 (row t p) j) := by
  obtain ⟨-, -, e0, e1, -⟩ := idx_facts t
  unfold iblk1
  rw [View.read_apply]
  show (V c main_v39 : S100000x5.Idx → EReal) _ = _
  refine congrArg (V c main_v39 : S100000x5.Idx → EReal) ?_
  funext a
  apply Fin.ext
  match a with
  | ⟨0, _⟩ => show win1_1.index t (0 : Fin 2) * 10000 + 1 * p.val = 10000 * t.val + p.val; rw [e0]; omega
  | ⟨1, _⟩ => show win1_1.index t (1 : Fin 2) * 5 + 1 * j.val = j.val; rw [e1]; omega

/-- The first weight window's one block is its whole array. -/
theorem blkW_eq (c : Dev nD) (t : Fin cfg1.N) : (iblk1 V c 2 t : S5x10.Idx → EReal) = (V c main_arg6 : S5x10.Idx → EReal) := by
  obtain ⟨-, -, -, -, e0, e1, -⟩ := idx_facts t
  funext y
  unfold iblk1
  rw [View.read_apply]
  show (V c main_arg6 : S5x10.Idx → EReal) _ = _
  refine congrArg (V c main_arg6 : S5x10.Idx → EReal) ?_
  funext a
  apply Fin.ext
  match a with
  | ⟨0, _⟩ => show win1_2.index t (0 : Fin 2) * 5 + 1 * (y 0).val = (y 0).val; rw [e0]; omega
  | ⟨1, _⟩ => show win1_2.index t (1 : Fin 2) * 10 + 1 * (y 1).val = (y 1).val; rw [e1]; omega

/-- So is the second weight window's. -/
theorem blkWn_eq (c : Dev nD) (t : Fin cfg1.N) : (iblk1 V c 3 t : S5x10.Idx → EReal) = (V c main_arg7 : S5x10.Idx → EReal) := by
  obtain ⟨-, -, -, -, -, -, e0, e1, -⟩ := idx_facts t
  funext y
  unfold iblk1
  rw [View.read_apply]
  show (V c main_arg7 : S5x10.Idx → EReal) _ = _
  refine congrArg (V c main_arg7 : S5x10.Idx → EReal) ?_
  funext a
  apply Fin.ext
  match a with
  | ⟨0, _⟩ => show win1_3.index t (0 : Fin 2) * 5 + 1 * (y 0).val = (y 0).val; rw [e0]; omega
  | ⟨1, _⟩ => show win1_3.index t (1 : Fin 2) * 10 + 1 * (y 1).val = (y 1).val; rw [e1]; omega

/-- And the bias window's. -/
theorem blkB_eq (c : Dev nD) (t : Fin cfg1.N) : (iblk1 V c 4 t : S1x10.Idx → EReal) = (V c main_v40 : S1x10.Idx → EReal) := by
  obtain ⟨-, -, -, -, -, -, -, -, e0, e1, -⟩ := idx_facts t
  funext y
  unfold iblk1
  rw [View.read_apply]
  show (V c main_v40 : S1x10.Idx → EReal) _ = _
  refine congrArg (V c main_v40 : S1x10.Idx → EReal) ?_
  funext a
  apply Fin.ext
  match a with
  | ⟨0, _⟩ => show win1_4.index t (0 : Fin 2) * 1 + 1 * (y 0).val = (y 0).val; rw [e0]; omega
  | ⟨1, _⟩ => show win1_4.index t (1 : Fin 2) * 10 + 1 * (y 1).val = (y 1).val; rw [e1]; omega

/-- What point t writes back is block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S10000x5) hz, View.ld_unit_zero (S := S5x10) hz, View.ld_unit_zero (S := S1x10) hz]
  obtain ⟨-, -, -, -, -, -, -, -, -, -, e0, e1⟩ := idx_facts t
  funext y
  obtain ⟨p, q, rfl⟩ : ∃ (p : Fin 10000) (q : Fin 10), y = ix2 p q := ⟨y 0, y 1, eq_ix2 y⟩
  show k1_pay1 (iblk1 V c 0 t) (iblk1 V c 1 t) (iblk1 V c 2 t) (iblk1 V c 3 t) (iblk1 V c 4 t) (ix2 p q)
    = layer V c (((cfg1.win 5).blk t).view.emb (ix2 p q))
  have hemb : ((cfg1.win 5).blk t).view.emb (ix2 p q) = (ix2 (row t p) q : S100000x10.Idx) := by
    funext a
    apply Fin.ext
    match a with
    | ⟨0, _⟩ => show win1_5.index t (0 : Fin 2) * 10000 + 1 * p.val = 10000 * t.val + p.val; rw [e0]; omega
    | ⟨1, _⟩ => show win1_5.index t (1 : Fin 2) * 10 + 1 * q.val = q.val; rw [e1]; omega
  rw [hemb]
  refine (Cert.Sage.Payload.pay1_apply _ _ _ _ _ p q).trans ?_
  rw [blkW_eq, blkWn_eq, blkB_eq]
  exact Cert.Sage.denseAt_rows _ _ _ _ _ _ _ p (row t p) q (fun j => blkX_apply V c t p j) (fun j => blkHn_apply V c t p j)

/-- An index of the result array is in point t's block iff each coordinate is in the block's range. -/
theorem mem_blk (t : Fin cfg1.N) (i : S100000x10.Idx) :
    i ∈ ((cfg1.win 5).blk t).view.set ↔ ∀ a : Fin 2, win1_5.index t a * S10000x10.size a ≤ (i a).val ∧ (i a).val < win1_5.index t a * S10000x10.size a + S10000x10.size a := by
  show i ∈ ((View.whole main_v41).slice (win1_5.rect t)).set ↔ _
  rw [View.set_slice_whole, Rect.mem_set_unit]
  exact Iff.rfl

/-- Row r of the result is in the block of point r / 10000. -/
theorem cover (i : S100000x10.Idx) :
    ∃ t : Fin cfg1.N, (cfg1.win 5).flush t = true ∧ i ∈ ((cfg1.win 5).blk t).view.set := by
  have hN : cfg1.N = 10 := N_1
  have hi0 : (i 0).val < 100000 := (i 0).isLt
  have hi1 : (i 1).val < 10 := (i 1).isLt
  have ht : (i 0).val / 10000 < cfg1.N := by omega
  obtain ⟨-, -, -, -, -, -, -, -, -, -, e0, e1⟩ := idx_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_5.index ⟨(i 0).val / 10000, ht⟩ (1 : Fin 2) * 10 ≤ (i 1).val
      ∧ (i 1).val < win1_5.index ⟨(i 0).val / 10000, ht⟩ (1 : Fin 2) * 10 + 10
    rw [e1]
    omega

/-- The result array after the launch: the layer of the operand arrays as the launch found them. -/
theorem arr (c : Dev nD) : (dat1 V c).arrAt 5 cfg1.N = layer V c :=
  (dat1 V c).arrAt_eq_of_cover 5 (layer V c) (fun t _ => flushed_eq V c t) cover

end Cert.Sage.Region1

end
-- ==== Proof.HostStretch.lean ====
/-
  The two stretches of host operations of the kernel's program, read back.

  Each stretch computes, from a feature array `f` and the edge lists `src`, `dst`, the mean of `f` over every node's
  in-neighbours — gather `f` at the (wrapped) sources, sum the gathered rows into the destinations, divide by
  max(in-degree, 1) — and reshapes a bias vector to one row. The first stretch does so for the input features and the
  first bias, the second for the first layer's result and the second bias. Neither stretch writes an argument array or
  the first layer's result. The mean is kept as ONE function of (f, src, dst): nothing below looks inside it.
-/
import proofs.«166889_j67259187855641_2_alg».proof.Proof.Gen.KernelIdeal.Launch
import Idealize.ShloMosaic.Lib.StableHlo.Run
import Idealize.ShloMosaic.PureOps.Ideal

noncomputable section

namespace Cert.Sage.Host

open Idealize.ShloMosaic Idealize.ShloMosaic.TcCoe Idealize.ShloMosaic.StableHlo Idealize.SL.Sem
open Cert.KernelIdeal Cert.KernelIdeal.Gen

/-- The mean of `f` over in-neighbours, as the kernel's program computes it on the host. -/
def neighbourMean (f : FVec Ideal S100000x5 .f32) (src dst : (⟨S6400000, .i32⟩ : BufTy).Contents (Elt Ideal)) :
    FVec Ideal S100000x5 .f32 :=
  Host.divf (Host.scatterAdd scatter_S100000x5_S6400000x1_S6400000x5_1_0_0_1 (broadcastInDim S100000x5 ![] bcast_S_S100000x5 (constant S_ .f32 0x00000000#32)) (broadcastInDim S6400000x1 ![0] bcast_S6400000_S6400000x1_0 dst) (Host.gather gather_S100000x5_S6400000x1_S6400000x5_1_0_n_n_0_1_15 f (broadcastInDim S6400000x1 ![0] bcast_S6400000_S6400000x1_0 (select (cmpi .slt src (broadcastInDim S6400000 ![] bcast_S_S6400000 (constantI S_ 32 0#32))) (addi src (broadcastInDim S6400000 ![] bcast_S_S6400000 (constantI S_ 32 100000#32))) src)))) (broadcastInDim S100000x5 ![0, 1] bcast_S100000x1_S100000x5_0_1 (broadcastInDim S100000x1 ![0] bcast_S100000_S100000x1_0 (maximumf (Host.scatterAdd scatter_S100000_S6400000x1_S6400000_n_0_0_1 (broadcastInDim S100000 ![] bcast_S_S100000 (constant S_ .f32 0x00000000#32)) (broadcastInDim S6400000x1 ![0] bcast_S6400000_S6400000x1_0 dst) (broadcastInDim S6400000 ![] bcast_S_S6400000 (constant S_ .f32 0x3F800000#32))) (broadcastInDim S100000 ![] bcast_S_S100000 (constant S_ .f32 0x3F800000#32)))))

variable (W : Valuation τ sig (Elt Ideal))

set_option maxHeartbeats 4000000 in
/-- After the first stretch the neighbour-mean buffer holds the mean of the input features. -/
theorem stretch0_mean : StableHlo.after (hostOps0 (F := Ideal)) W (Proc.devRef .tc main_v18)
    = neighbourMean (W (Proc.devRef .tc main_arg0)) (W (Proc.devRef .tc main_arg1)) (W (Proc.devRef .tc main_arg2)) := by
  unfold neighbourMean
  after_results_simp <;> rfl

/-- and the bias row's buffer the first bias as a 1 × 5 array. -/
theorem stretch0_bias : StableHlo.after (hostOps0 (F := Ideal)) W (Proc.devRef .tc main_v19)
    = shapeCast S1x5 (W (Proc.devRef .tc main_arg5)) shapeCasts_S5_S1x5 := by
  after_results
  rfl

set_option maxHeartbeats 4000000 in
/-- After the second stretch the neighbour-mean buffer holds the mean of the first layer's result. -/
theorem stretch1_mean : StableHlo.after (hostOps1 (F := Ideal)) W (Proc.devRef .tc main_v39)
    = neighbourMean (W (Proc.devRef .tc main_v20)) (W (Proc.devRef .tc main_arg1)) (W (Proc.devRef .tc main_arg2)) := by
  unfold neighbourMean
  after_results_simp <;> rfl

/-- and the bias row's buffer the second bias as a 1 × 10 array. -/
theorem stretch1_bias : StableHlo.after (hostOps1 (F := Ideal)) W (Proc.devRef .tc main_v40)
    = shapeCast S1x10 (W (Proc.devRef .tc main_arg8)) shapeCasts_S10_S1x10 := by
  after_results
  rfl

/-! The buffers a stretch leaves alone. -/
theorem stretch0_main_arg0 : StableHlo.after (hostOps0 (F := Ideal)) W (Proc.devRef .tc main_arg0) = W (Proc.devRef .tc main_arg0) := by
  after_results
theorem stretch0_main_arg1 : StableHlo.after (hostOps0 (F := Ideal)) W (Proc.devRef .tc main_arg1) = W (Proc.devRef .tc main_arg1) := by
  after_results
theorem stretch0_main_arg2 : StableHlo.after (hostOps0 (F := Ideal)) W (Proc.devRef .tc main_arg2) = W (Proc.devRef .tc main_arg2) := by
  after_results
theorem stretch0_main_arg3 : StableHlo.after (hostOps0 (F := Ideal)) W (Proc.devRef .tc main_arg3) = W (Proc.devRef .tc main_arg3) := by
  after_results
theorem stretch0_main_arg4 : StableHlo.after (hostOps0 (F := Ideal)) W (Proc.devRef .tc main_arg4) = W (Proc.devRef .tc main_arg4) := by
  after_results
theorem stretch0_main_arg6 : StableHlo.after (hostOps0 (F := Ideal)) W (Proc.devRef .tc main_arg6) = W (Proc.devRef .tc main_arg6) := by
  after_results
theorem stretch0_main_arg7 : StableHlo.after (hostOps0 (F := Ideal)) W (Proc.devRef .tc main_arg7) = W (Proc.devRef .tc main_arg7) := by
  after_results
theorem stretch0_main_arg8 : StableHlo.after (hostOps0 (F := Ideal)) W (Proc.devRef .tc main_arg8) = W (Proc.devRef .tc main_arg8) := by
  after_results
theorem stretch1_main_v20 : StableHlo.after (hostOps1 (F := Ideal)) W (Proc.devRef .tc main_v20) = W (Proc.devRef .tc main_v20) := by
  after_results
theorem stretch1_main_arg6 : StableHlo.after (hostOps1 (F := Ideal)) W (Proc.devRef .tc main_arg6) = W (Proc.devRef .tc main_arg6) := by
  after_results
theorem stretch1_main_arg7 : StableHlo.after (hostOps1 (F := Ideal)) W (Proc.devRef .tc main_arg7) = W (Proc.devRef .tc main_arg7) := by
  after_results

end Cert.Sage.Host

end
-- ==== Proof.KernelValue.lean ====
/-
  The kernel's result, as a function of its nine arguments.

  Reading the buffer contents back through the four segments: the second launch leaves in the result array the dense
  layer of what it found in its operand arrays; those are the first launch's result h (untouched by the second stretch
  of host operations), the mean of h over in-neighbours (computed by that stretch), the second layer's weights and its bias as
  one row; and h is the dense layer of the input features, their mean over in-neighbours, the first layer's weights and the
  first bias as one row. A bias reshaped to one row and read at (0, q) is the bias at q.
-/
import proofs.«166889_j67259187855641_2_alg».proof.Proof.Gen.KernelIdeal.Frame
import proofs.«166889_j67259187855641_2_alg».proof.Proof.Region0
import proofs.«166889_j67259187855641_2_alg».proof.Proof.Region1
import proofs.«166889_j67259187855641_2_alg».proof.Proof.HostStretch

set_option maxRecDepth 16384

noncomputable section

namespace Cert.Sage.Kernel

open Idealize.ShloMosaic Idealize.ShloMosaic.TcCoe Idealize.ShloMosaic.ValueIdx Idealize.SL.Sem
open Cert.KernelIdeal Cert.KernelIdeal.Gen

/-- A length-5 vector reshaped to one row, read at (0, q). -/
theorem row5 (b : FVec Ideal S5 .f32) (q : Fin 5) : shapeCast S1x5 b shapeCasts_S5_S1x5 (ix2 0 q) = b (ix1 q) := by
  refine shapeCast_apply b shapeCasts_S5_S1x5 (ix2 0 q) (ix1 q) ?_
  rw [Shape.rowMajor_val_one, Shape.rowMajor_val_two]
  show q.val = 0 * 5 + q.val
  omega

/-- A length-10 vector reshaped to one row, read at (0, q). -/
theorem row10 (b : FVec Ideal S10 .f32) (q : Fin 10) : shapeCast S1x10 b shapeCasts_S10_S1x10 (ix2 0 q) = b (ix1 q) := by
  refine shapeCast_apply b shapeCasts_S10_S1x10 (ix2 0 q) (ix1 q) ?_
  rw [Shape.rowMajor_val_one, Shape.rowMajor_val_two]
  show q.val = 0 * 10 + q.val
  omega

/-- The first layer's result. -/
def hidden (x : FVec Ideal S100000x5 .f32) (src dst : (⟨S6400000, .i32⟩ : BufTy).Contents (Elt Ideal))
    (W1 Wn1 : FVec Ideal S5x5 .f32) (b1 : FVec Ideal S5 .f32) : FVec Ideal S100000x5 .f32 :=
  Cert.Sage.dense (n := 100000) (k := 5) (o := 5) x (Cert.Sage.Host.neighbourMean x src dst) W1 Wn1 (fun q => b1 (ix1 q))

/-- The kernel's result. -/
def result (x : FVec Ideal S100000x5 .f32) (src dst : (⟨S6400000, .i32⟩ : BufTy).Contents (Elt Ideal))
    (W1 Wn1 : FVec Ideal S5x5 .f32) (b1 : FVec Ideal S5 .f32) (W2 Wn2 : FVec Ideal S5x10 .f32) (b2 : FVec Ideal S10 .f32) :
    FVec Ideal S100000x10 .f32 :=
  Cert.Sage.dense (n := 100000) (k := 5) (o := 10) (hidden x src dst W1 Wn1 b1)
    (Cert.Sage.Host.neighbourMean (hidden x src dst W1 Wn1 b1) src dst) W2 Wn2 (fun q => b2 (ix1 q))

variable (m : (ℓ : Loc nD τ sig) → Buf (Elt Ideal) ℓ) (ρ : Dev nD → PrngReg)

/-- What the first launch finds: the arguments as launched, the mean of the input features, the first bias as one row. -/
theorem entry0 (c : Dev nD) :
    V1 m ρ c main_arg0 = (m ((c : Thread nD τ).loc main_arg0)) ∧ V1 m ρ c main_arg3 = (m ((c : Thread nD τ).loc main_arg3)) ∧ V1 m ρ c main_arg4 = (m ((c : Thread nD τ).loc main_arg4))
    ∧ V1 m ρ c main_v18 = Cert.Sage.Host.neighbourMean (m ((c : Thread nD τ).loc main_arg0)) (m ((c : Thread nD τ).loc main_arg1)) (m ((c : Thread nD τ).loc main_arg2))
    ∧ V1 m ρ c main_v19 = shapeCast S1x5 (m ((c : Thread nD τ).loc main_arg5)) shapeCasts_S5_S1x5 :=
  ⟨Cert.Sage.Host.stretch0_main_arg0 (W0 m ρ c), Cert.Sage.Host.stretch0_main_arg3 (W0 m ρ c), Cert.Sage.Host.stretch0_main_arg4 (W0 m ρ c),
    Cert.Sage.Host.stretch0_mean (W0 m ρ c), Cert.Sage.Host.stretch0_bias (W0 m ρ c)⟩

/-- The first launch leaves the first layer's result in its result array. -/
theorem hidden_eq (c : Dev nD) :
    W2 m ρ c (Proc.devRef .tc main_v20)
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨a0, a3, a4, a18, a19⟩ := entry0 m ρ c
  refine ((W2_arr m ρ c 5).trans (Cert.Sage.Region0.arr (V1 m ρ) c)).trans ?_
  unfold Cert.Sage.Region0.layer hidden
  rw [a0, a3, a4, a18, a19]
  exact congrArg _ (funext fun q => row5 _ q)

/-- An argument the first launch does not write is, after it, as launched. -/
theorem W2_arg1 (c : Dev nD) : W2 m ρ c (Proc.devRef .tc main_arg1) = (m ((c : Thread nD τ).loc main_arg1)) :=
  (W2_of_ne m ρ c main_arg1 (by decide)).trans (Cert.Sage.Host.stretch0_main_arg1 (W0 m ρ c))
theorem W2_arg2 (c : Dev nD) : W2 m ρ c (Proc.devRef .tc main_arg2) = (m ((c : Thread nD τ).loc main_arg2)) :=
  (W2_of_ne m ρ c main_arg2 (by decide)).trans (Cert.Sage.Host.stretch0_main_arg2 (W0 m ρ c))
theorem W2_arg6 (c : Dev nD) : W2 m ρ c (Proc.devRef .tc main_arg6) = (m ((c : Thread nD τ).loc main_arg6)) :=
  (W2_of_ne m ρ c main_arg6 (by decide)).trans (Cert.Sage.Host.stretch0_main_arg6 (W0 m ρ c))
theorem W2_arg7 (c : Dev nD) : W2 m ρ c (Proc.devRef .tc main_arg7) = (m ((c : Thread nD τ).loc main_arg7)) :=
  (W2_of_ne m ρ c main_arg7 (by decide)).trans (Cert.Sage.Host.stretch0_main_arg7 (W0 m ρ c))
theorem W2_arg8 (c : Dev nD) : W2 m ρ c (Proc.devRef .tc main_arg8) = (m ((c : Thread nD τ).loc main_arg8)) :=
  (W2_of_ne m ρ c main_arg8 (by decide)).trans (Cert.Sage.Host.stretch0_main_arg8 (W0 m ρ c))

/-- What the second launch finds: the first layer's result, its mean, the second layer's weights, the second bias as one row. -/
theorem entry1 (c : Dev nD) :
    V3 m ρ c main_v20 = W2 m ρ c (Proc.devRef .tc main_v20) ∧ V3 m ρ c main_arg6 = (m ((c : Thread nD τ).loc main_arg6)) ∧ V3 m ρ c main_arg7 = (m ((c : Thread nD τ).loc main_arg7))
    ∧ V3 m ρ c main_v39 = Cert.Sage.Host.neighbourMean (W2 m ρ c (Proc.devRef .tc main_v20)) (m ((c : Thread nD τ).loc main_arg1)) (m ((c : Thread nD τ).loc main_arg2))
    ∧ V3 m ρ c main_v40 = shapeCast S1x10 (m ((c : Thread nD τ).loc main_arg8)) shapeCasts_S10_S1x10 :=
  ⟨Cert.Sage.Host.stretch1_main_v20 (W2 m ρ c),
    (Cert.Sage.Host.stretch1_main_arg6 (W2 m ρ c)).trans (W2_arg6 m ρ c),
    (Cert.Sage.Host.stretch1_main_arg7 (W2 m ρ c)).trans (W2_arg7 m ρ c),
    (Cert.Sage.Host.stretch1_mean (W2 m ρ c)).trans (by rw [W2_arg1, W2_arg2]),
    (Cert.Sage.Host.stretch1_bias (W2 m ρ c)).trans (by rw [W2_arg8])⟩

/-- The result buffer's final contents are the kernel's result of the arguments as launched. -/
theorem final (c : Dev nD) :
    W4 m ρ c (Proc.devRef .tc main_v41)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  obtain ⟨a20, a6, a7, a39, a40⟩ := entry1 m ρ c
  refine ((W4_arr m ρ c 5).trans (Cert.Sage.Region1.arr (V3 m ρ) c)).trans ?_
  unfold Cert.Sage.Region1.layer result
  rw [a20, a6, a7, a39, a40, hidden_eq m ρ c]
  exact congrArg _ (funext fun q => row10 _ q)

end Cert.Sage.Kernel

end
-- ==== Proof.RefValue.lean ====
/-
  The reference, read as two dense layers around one neighbour mean.

  The reference computes, on the host, layer(x, mean(x)) and then layer(h, mean(h)) of that result h, where mean(f) is the
  mean of f over every node's in-neighbours (a gather, a scatter-add, a division by max(in-degree, 1)) and a layer is
  1 / (1 + exp(−(f·W + mean·Wn + b))). Its result term is literally that composition (`result_eq`, by unfolding). Each
  layer, entry by entry, is the dense layer of the specification (`hostLayer5_eq`, `hostLayer10_eq`): the host's
  `dot_general` is the exact sum over the 5 input features, the bias's two broadcasts read it at its column, and
  1 / (1 + exp(−z)) is what the logistic function is on the extended reals. The mean is kept as one function, unopened.
-/
import proofs.«166889_j67259187855641_2_alg».proof.Proof.Gen.ReferenceIdeal.Run
import proofs.«166889_j67259187855641_2_alg».proof.Proof.LibDot
import proofs.«166889_j67259187855641_2_alg».proof.Proof.DenseSpec
import Idealize.ShloMosaic.Lib.Pipeline.Value
import Idealize.ShloMosaic.Lib.ValueIdx
import Idealize.ShloMosaic.Lib.IdealHost

noncomputable section

namespace Cert.Sage.Ref

open Idealize.ShloMosaic Idealize.ShloMosaic.TcCoe Idealize.ShloMosaic.ValueIdx Idealize.SL.Sem
open Cert.ReferenceIdeal Cert.ReferenceIdeal.Gen

/-- The mean of `f` over in-neighbours, as the reference computes it on the host. -/
def neighbourMean (f : FVec Ideal S100000x5 .f32) (src dst : (⟨S6400000, .i32⟩ : BufTy).Contents (Elt Ideal)) :
    FVec Ideal S100000x5 .f32 :=
  Host.divf (Host.scatterAdd scatter_S100000x5_S6400000x1_S6400000x5_1_0_0_1 (broadcastInDim S100000x5 ![] bcast_S_S100000x5 (constant S_ .f32 0x00000000#32)) (broadcastInDim S6400000x1 ![0] bcast_S6400000_S6400000x1_0 dst) (Host.gather gather_S100000x5_S6400000x1_S6400000x5_1_0_n_n_0_1_15 f (broadcastInDim S6400000x1 ![0] bcast_S6400000_S6400000x1_0 (select (cmpi .slt src (broadcastInDim S6400000 ![] bcast_S_S6400000 (constantI S_ 32 0#32))) (addi src (broadcastInDim S6400000 ![] bcast_S_S6400000 (constantI S_ 32 100000#32))) src)))) (broadcastInDim S100000x5 ![0, 1] bcast_S100000x1_S100000x5_0_1 (broadcastInDim S100000x1 ![0] bcast_S100000_S100000x1_0 (maximumf (Host.scatterAdd scatter_S100000_S6400000x1_S6400000_n_0_0_1 (broadcastInDim S100000 ![] bcast_S_S100000 (constant S_ .f32 0x00000000#32)) (broadcastInDim S6400000x1 ![0] bcast_S6400000_S6400000x1_0 dst) (broadcastInDim S6400000 ![] bcast_S_S6400000 (constant S_ .f32 0x3F800000#32))) (broadcastInDim S100000 ![] bcast_S_S100000 (constant S_ .f32 0x3F800000#32)))))

/-- The reference's dense layer with 5 output features, as its host operations spell it: two `dot_general`s added, the bias
    broadcast to a row and then down the rows and added, then 1 / (1 + exp(−·)). -/
def hostLayer5 (h hn : FVec Ideal S100000x5 .f32) (W Wn : FVec Ideal S5x5 .f32)
    (b : FVec Ideal S5 .f32) : FVec Ideal S100000x5 .f32 :=
  Host.divf (broadcastInDim S100000x5 ![] bcast_S_S100000x5 (constant S_ .f32 0x3F800000#32)) (addf (broadcastInDim S100000x5 ![] bcast_S_S100000x5 (constant S_ .f32 0x3F800000#32)) (Host.exp (Host.negf (addf (addf (Host.dotGeneral dot_S100000x5_S5x5_S100000x5_1_0_0_1_n_n none h W) (Host.dotGeneral dot_S100000x5_S5x5_S100000x5_1_0_0_1_n_n none hn Wn)) (broadcastInDim S100000x5 ![0, 1] bcast_S1x5_S100000x5_0_1 (broadcastInDim S1x5 ![1] bcast_S5_S1x5_1 b))))))

/-- Its dimension numbers are the plain product's. -/
theorem dot5_plain : dot_S100000x5_S5x5_S100000x5_1_0_0_1_n_n = DotDims.plain 100000 5 5 := rfl

/-- The constant one, broadcast, is one at every entry. -/
theorem one5_apply (i : S100000x5.Idx) :
    (broadcastInDim S100000x5 ![] bcast_S_S100000x5 (constant (F := Ideal) S_ .f32 0x3F800000#32)) i = 1 := by
  rw [broadcastInDim_apply _ bcast_S_S100000x5 _ i ix0 (fun a => a.elim0)]
  exact Ideal.ofBits_one_f32

/-- The bias broadcast to a row and down the rows, at (p, q), is the bias at q. -/
theorem bias5_apply (b : FVec Ideal S5 .f32) (p : Fin 100000) (q : Fin 5) :
    (broadcastInDim S100000x5 ![0, 1] bcast_S1x5_S100000x5_0_1 (broadcastInDim S1x5 ![1] bcast_S5_S1x5_1 b)) (ix2 p q) = b (ix1 q) := by
  rw [broadcastInDim_apply _ bcast_S1x5_S100000x5_0_1 _ (ix2 p q) (ix2 0 q) (fun a => match a with
    | ⟨0, _⟩ => by show 0 = if (1 : Nat) = 1 then 0 else p.val; rw [if_pos rfl]
    | ⟨1, _⟩ => by show q.val = if (5 : Nat) = 1 then 0 else q.val; rw [if_neg (by decide)])]
  exact broadcastInDim_apply _ bcast_S5_S1x5_1 b (ix2 0 q) (ix1 q) (fun a => match a with
    | ⟨0, _⟩ => by show q.val = if (5 : Nat) = 1 then 0 else q.val; rw [if_neg (by decide)])

/-- The host's product at (p, q) is the sum over the 5 input features. -/
theorem dot5_apply (h : FVec Ideal S100000x5 .f32) (W : FVec Ideal S5x5 .f32) (p : Fin 100000) (q : Fin 5) :
    Host.dotGeneral dot_S100000x5_S5x5_S100000x5_1_0_0_1_n_n none h W (ix2 p q) = ∑ j : Fin 5, h (ix2 p j) * W (ix2 j q) := by
  simp only [Host.dotGeneral]
  rw [dot5_plain]
  exact Cert.Lib.Dot.dotGeneral_plain_apply _ _ h W p q

/-- The reference's layer IS the dense layer, entry by entry: 1 / (1 + exp(−z)) is the logistic function's definition on
    the extended reals. -/
theorem hostLayer5_eq (h hn : FVec Ideal S100000x5 .f32) (W Wn : FVec Ideal S5x5 .f32)
    (b : FVec Ideal S5 .f32) :
    hostLayer5 h hn W Wn b = Cert.Sage.dense (n := 100000) (k := 5) (o := 5) h hn W Wn (fun q => b (ix1 q)) := by
  funext i
  obtain ⟨p, q, rfl⟩ : ∃ (p : Fin 100000) (q : Fin 5), i = ix2 p q := ⟨i 0, i 1, eq_ix2 i⟩
  rw [Cert.Sage.dense_ix2]
  unfold hostLayer5 Cert.Sage.denseAt
  show Ideal.div ((broadcastInDim S100000x5 ![] bcast_S_S100000x5 (constant (F := Ideal) S_ .f32 0x3F800000#32)) (ix2 p q))
      ((broadcastInDim S100000x5 ![] bcast_S_S100000x5 (constant (F := Ideal) S_ .f32 0x3F800000#32)) (ix2 p q)
        + Ideal.exp (-(Host.dotGeneral dot_S100000x5_S5x5_S100000x5_1_0_0_1_n_n none h W (ix2 p q)
            + Host.dotGeneral dot_S100000x5_S5x5_S100000x5_1_0_0_1_n_n none hn Wn (ix2 p q)
            + (broadcastInDim S100000x5 ![0, 1] bcast_S1x5_S100000x5_0_1 (broadcastInDim S1x5 ![1] bcast_S5_S1x5_1 b)) (ix2 p q)))) = _
  rw [one5_apply, dot5_apply, dot5_apply, bias5_apply]
  rfl

/-- The reference's dense layer with 10 output features, as its host operations spell it: two `dot_general`s added, the bias
    broadcast to a row and then down the rows and added, then 1 / (1 + exp(−·)). -/
def hostLayer10 (h hn : FVec Ideal S100000x5 .f32) (W Wn : FVec Ideal S5x10 .f32)
    (b : FVec Ideal S10 .f32) : FVec Ideal S100000x10 .f32 :=
  Host.divf (broadcastInDim S100000x10 ![] bcast_S_S100000x10 (constant S_ .f32 0x3F800000#32)) (addf (broadcastInDim S100000x10 ![] bcast_S_S100000x10 (constant S_ .f32 0x3F800000#32)) (Host.exp (Host.negf (addf (addf (Host.dotGeneral dot_S100000x5_S5x10_S100000x10_1_0_0_1_n_n none h W) (Host.dotGeneral dot_S100000x5_S5x10_S100000x10_1_0_0_1_n_n none hn Wn)) (broadcastInDim S100000x10 ![0, 1] bcast_S1x10_S100000x10_0_1 (broadcastInDim S1x10 ![1] bcast_S10_S1x10_1 b))))))

/-- Its dimension numbers are the plain product's. -/
theorem dot10_plain : dot_S100000x5_S5x10_S100000x10_1_0_0_1_n_n = DotDims.plain 100000 5 10 := rfl

/-- The constant one, broadcast, is one at every entry. -/
theorem one10_apply (i : S100000x10.Idx) :
    (broadcastInDim S100000x10 ![] bcast_S_S100000x10 (constant (F := Ideal) S_ .f32 0x3F800000#32)) i = 1 := by
  rw [broadcastInDim_apply _ bcast_S_S100000x10 _ i ix0 (fun a => a.elim0)]
  exact Ideal.ofBits_one_f32

/-- The bias broadcast to a row and down the rows, at (p, q), is the bias at q. -/
theorem bias10_apply (b : FVec Ideal S10 .f32) (p : Fin 100000) (q : Fin 10) :
    (broadcastInDim S100000x10 ![0, 1] bcast_S1x10_S100000x10_0_1 (broadcastInDim S1x10 ![1] bcast_S10_S1x10_1 b)) (ix2 p q) = b (ix1 q) := by
  rw [broadcastInDim_apply _ bcast_S1x10_S100000x10_0_1 _ (ix2 p q) (ix2 0 q) (fun a => match a with
    | ⟨0, _⟩ => by show 0 = if (1 : Nat) = 1 then 0 else p.val; rw [if_pos rfl]
    | ⟨1, _⟩ => by show q.val = if (10 : Nat) = 1 then 0 else q.val; rw [if_neg (by decide)])]
  exact broadcastInDim_apply _ bcast_S10_S1x10_1 b (ix2 0 q) (ix1 q) (fun a => match a with
    | ⟨0, _⟩ => by show q.val = if (10 : Nat) = 1 then 0 else q.val; rw [if_neg (by decide)])

/-- The host's product at (p, q) is the sum over the 5 input features. -/
theorem dot10_apply (h : FVec Ideal S100000x5 .f32) (W : FVec Ideal S5x10 .f32) (p : Fin 100000) (q : Fin 10) :
    Host.dotGeneral dot_S100000x5_S5x10_S100000x10_1_0_0_1_n_n none h W (ix2 p q) = ∑ j : Fin 5, h (ix2 p j) * W (ix2 j q) := by
  simp only [Host.dotGeneral]
  rw [dot10_plain]
  exact Cert.Lib.Dot.dotGeneral_plain_apply _ _ h W p q

/-- The reference's layer IS the dense layer, entry by entry: 1 / (1 + exp(−z)) is the logistic function's definition on
    the extended reals. -/
theorem hostLayer10_eq (h hn : FVec Ideal S100000x5 .f32) (W Wn : FVec Ideal S5x10 .f32)
    (b : FVec Ideal S10 .f32) :
    hostLayer10 h hn W Wn b = Cert.Sage.dense (n := 100000) (k := 5) (o := 10) h hn W Wn (fun q => b (ix1 q)) := by
  funext i
  obtain ⟨p, q, rfl⟩ : ∃ (p : Fin 100000) (q : Fin 10), i = ix2 p q := ⟨i 0, i 1, eq_ix2 i⟩
  rw [Cert.Sage.dense_ix2]
  unfold hostLayer10 Cert.Sage.denseAt
  show Ideal.div ((broadcastInDim S100000x10 ![] bcast_S_S100000x10 (constant (F := Ideal) S_ .f32 0x3F800000#32)) (ix2 p q))
      ((broadcastInDim S100000x10 ![] bcast_S_S100000x10 (constant (F := Ideal) S_ .f32 0x3F800000#32)) (ix2 p q)
        + Ideal.exp (-(Host.dotGeneral dot_S100000x5_S5x10_S100000x10_1_0_0_1_n_n none h W (ix2 p q)
            + Host.dotGeneral dot_S100000x5_S5x10_S100000x10_1_0_0_1_n_n none hn Wn (ix2 p q)
            + (broadcastInDim S100000x10 ![0, 1] bcast_S1x10_S100000x10_0_1 (broadcastInDim S1x10 ![1] bcast_S10_S1x10_1 b)) (ix2 p q)))) = _
  rw [one10_apply, dot10_apply, dot10_apply, bias10_apply]
  rfl

/-- The reference's result as a function of the nine argument arrays. -/
def result (x : FVec Ideal S100000x5 .f32) (src dst : (⟨S6400000, .i32⟩ : BufTy).Contents (Elt Ideal))
    (W1 Wn1 : FVec Ideal S5x5 .f32) (b1 : FVec Ideal S5 .f32)
    (W2 Wn2 : FVec Ideal S5x10 .f32) (b2 : FVec Ideal S10 .f32) :
    FVec Ideal S100000x10 .f32 :=
  hostLayer10 (hostLayer5 x (neighbourMean x src dst) W1 Wn1 b1)
    (neighbourMean (hostLayer5 x (neighbourMean x src dst) W1 Wn1 b1) src dst) W2 Wn2 b2

set_option maxRecDepth 8192 in
/-- The generated run's result term is that composition. -/
theorem result_eq (m : (ℓ : Loc nD τ sig) → Buf (Elt Ideal) ℓ) (c : Dev nD) :
    Cert.ReferenceIdeal.Value.res_main_v61 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v61 result hostLayer10 hostLayer5 neighbourMean
  rfl

end Cert.Sage.Ref

end
-- ==== Proof.Bridge.lean ====
/-
  The two results are one function of the nine arguments.

  Both programs compute the mean over in-neighbours with the same host operations, so the two means are the same function
  (`mean_eq`: the two programs' spellings of the gather's and the scatters' dimension numbers and of the shapes coincide).
  Around it both are dense layer after dense layer: the reference's by its layers read entry by entry, the kernel's by
  what its two launches leave. No algebraic law is needed beyond that: both sides take the same sums in the same order.
-/
import proofs.«166889_j67259187855641_2_alg».proof.Proof.KernelValue
import proofs.«166889_j67259187855641_2_alg».proof.Proof.RefValue

noncomputable section

namespace Cert.Sage.Bridge

open Idealize.ShloMosaic Idealize.ShloMosaic.ValueIdx

/-- The reference's and the kernel's mean over in-neighbours are the same operations of the same arrays. -/
theorem mean_eq (f : FVec Ideal Cert.KernelIdeal.S100000x5 .f32) (src dst : (⟨Cert.KernelIdeal.S6400000, .i32⟩ : BufTy).Contents (Elt Ideal)) :
    Cert.Sage.Ref.neighbourMean f src dst = Cert.Sage.Host.neighbourMean f src dst := by
  unfold Cert.Sage.Ref.neighbourMean Cert.Sage.Host.neighbourMean
  rfl

/-- The reference's result is the kernel's result. -/
theorem result_eq (x : FVec Ideal Cert.KernelIdeal.S100000x5 .f32) (src dst : (⟨Cert.KernelIdeal.S6400000, .i32⟩ : BufTy).Contents (Elt Ideal))
    (W1 Wn1 : FVec Ideal Cert.KernelIdeal.S5x5 .f32) (b1 : FVec Ideal Cert.KernelIdeal.S5 .f32)
    (W2 Wn2 : FVec Ideal Cert.KernelIdeal.S5x10 .f32) (b2 : FVec Ideal Cert.KernelIdeal.S10 .f32) :
    Cert.Sage.Ref.result x src dst W1 Wn1 b1 W2 Wn2 b2 = Cert.Sage.Kernel.result x src dst W1 Wn1 b1 W2 Wn2 b2 := by
  unfold Cert.Sage.Ref.result Cert.Sage.Kernel.result Cert.Sage.Kernel.hidden
  rw [Cert.Sage.Ref.hostLayer10_eq, Cert.Sage.Ref.hostLayer5_eq, mean_eq, mean_eq]

end Cert.Sage.Bridge

end
-- ==== Proof.lean ====
/-
  Two GraphSAGE layers (mean aggregation) as a tiled kernel, against the plain reference.

  Both programs compute, for node features x, edge lists src → dst, weights and biases,

      h   = σ( x · W1 + mean(x) · Wn1 + b1 ),        out = σ( h · W2 + mean(h) · Wn2 + b2 ),

  where mean(f)[v] is the sum of f over the edges into v divided by max(in-degree of v, 1), and σ(z) = 1 / (1 + e^(−z)).
  The kernel's program takes each mean on the host and runs each dense layer as one launch over ten blocks of 10000 rows,
  rounding the matrix operands to bf16 on the way into the products; the reference does everything on the host. On the
  extended reals the rounding is the identity, a matrix product is the exact sum over the 5 input features, and a
  dense layer's row depends only on the same row of its inputs, so the row tiling changes nothing: the two results are
  the same function of the arguments, with the same sums taken in the same order. No finiteness is used.

  The frames of the two kernel programs are the generated ones; the reference's frame is its generated run with the result
  dropped; the ideal pass rewrote nothing, so `preserves` is trivial.
-/
import proofs.«166889_j67259187855641_2_alg».proof.Defs
import proofs.«166889_j67259187855641_2_alg».proof.Proof.Gen.Kernel
import proofs.«166889_j67259187855641_2_alg».proof.Proof.Gen.Kernel.Skeleton
import proofs.«166889_j67259187855641_2_alg».proof.Proof.Gen.Kernel.Launch
import proofs.«166889_j67259187855641_2_alg».proof.Proof.Gen.Kernel.Points
import proofs.«166889_j67259187855641_2_alg».proof.Proof.Gen.Kernel.Frame
import proofs.«166889_j67259187855641_2_alg».proof.Proof.Gen.KernelIdeal
import proofs.«166889_j67259187855641_2_alg».proof.Proof.Gen.KernelIdeal.Skeleton
import proofs.«166889_j67259187855641_2_alg».proof.Proof.Gen.KernelIdeal.Launch
import proofs.«166889_j67259187855641_2_alg».proof.Proof.Gen.KernelIdeal.Points
import proofs.«166889_j67259187855641_2_alg».proof.Proof.Gen.KernelIdeal.Frame
import proofs.«166889_j67259187855641_2_alg».proof.Proof.Gen.ReferenceIdeal
import proofs.«166889_j67259187855641_2_alg».proof.Proof.Gen.Pre_finite_inputs
import proofs.«166889_j67259187855641_2_alg».proof.Proof.Gen.ReferenceIdeal.Run
import proofs.«166889_j67259187855641_2_alg».proof.Proof.KernelRun
import proofs.«166889_j67259187855641_2_alg».proof.Proof.KernelValue
import proofs.«166889_j67259187855641_2_alg».proof.Proof.RefValue
import proofs.«166889_j67259187855641_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no launch: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end with the result array at one function of the arguments: the kernel's by reading its four segments
    back, the reference's by its run; the two functions are equal, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.Kernel.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.Sage.Kernel.final m ρ c), (h c).2⟩)
      (Cert.Sage.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.Sage.Ref.result_eq, e0, e1, e2, e3, e4, e5, e6, e7, e8]
    exact Cert.Sage.Bridge.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
